-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x21 : Shape := ⟨2, ![4194304, 21]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4194304x21 : S_.BroadcastsInDim S4194304x21 (![] : Fin 0 → Fin S4194304x21.rank)
  reducesTo_S4194304x21_S_d0_1 : S4194304x21.ReducesTo [0, 1] S_

variable [Facts]

def fn {F : FTy → Type} [FloatOps F] (main_arg0 : FVec F S4194304 .f32) (main_arg1 : FVec F S4194304x21 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304x21 .f32 := Host.absf main_arg1
  let main_cst_0 : FVec F S_ .f32 := constant S_ .f32 0x7F800000#32
  let main_v5 : FVec F S4194304x21 .f32 := broadcastInDim S4194304x21 ![] bcast_S_S4194304x21 main_cst_0
  let main_v6 : IVec S4194304x21 1 := cmpf .olt main_v4 main_v5
  let main_c_1 : IVec S_ 1 := constantI S_ 1 1#1
  let main_v7 : IVec S_ 1 := (fun x v => Host.reduce IntOp.andi x v reducesTo_S4194304x21_S_d0_1 h_S_) main_v6 main_c_1
  let main_v8 : IVec S_ 1 := andi main_v3 main_v7
  main_v8
-- ==== Kernel.lean ====
abbrev S4194304 : Shape := ⟨1, ![4194304]⟩
abbrev S4194304x21 : Shape := ⟨2, ![4194304, 21]⟩
abbrev S4194304x1 : Shape := ⟨2, ![4194304, 1]⟩
abbrev S2048x1 : Shape := ⟨2, ![2048, 1]⟩
abbrev S2048x21 : Shape := ⟨2, ![2048, 21]⟩

abbrev nBuf : Space → Nat
  | .hbm => 7
  | .vmem => 8
  | .smem => 0
  | _ => 0

abbrev bufTy : (tb : Table) → Fin (tcTables nBuf tb) → BufTy
  | .hbm, ⟨0, _⟩ => ⟨S4194304, .f32⟩
  | .hbm, ⟨1, _⟩ => ⟨S4194304x21, .f32⟩
  | .hbm, ⟨2, _⟩ => ⟨S4194304x1, .f32⟩
  | .hbm, ⟨3, _⟩ => ⟨S4194304x1, .f32⟩
  | .hbm, ⟨4, _⟩ => ⟨S4194304x1, .f32⟩
  | .hbm, ⟨5, _⟩ => ⟨S4194304, .f32⟩
  | .hbm, ⟨6, _⟩ => ⟨S4194304, .f32⟩
  | .local _ .vmem, ⟨0, _⟩ => ⟨S2048x1, .f32⟩
  | .local _ .vmem, ⟨1, _⟩ => ⟨S2048x1, .f32⟩
  | .local _ .vmem, ⟨2, _⟩ => ⟨S2048x21, .f32⟩
  | .local _ .vmem, ⟨3, _⟩ => ⟨S2048x21, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304_S4194304x1 : S4194304.ShapeCasts S4194304x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x21_S2048x1_0_1 : ∀ a, (![0, 1] : Fin 2 → Nat) a + S2048x1.size a ≤ S2048x21.size a
  inb_S2048x21_S2048x1_0_2 : ∀ a, (![0, 2] : Fin 2 → Nat) a + S2048x1.size a ≤ S2048x21.size a
  inb_S2048x21_S2048x1_0_4 : ∀ a, (![0, 4] : Fin 2 → Nat) a + S2048x1.size a ≤ S2048x21.size a
  inb_S2048x21_S2048x1_0_5 : ∀ a, (![0, 5] : Fin 2 → Nat) a + S2048x1.size a ≤ S2048x21.size a
  inb_S2048x21_S2048x1_0_7 : ∀ a, (![0, 7] : Fin 2 → Nat) a + S2048x1.size a ≤ S2048x21.size a
  inb_S2048x21_S2048x1_0_8 : ∀ a, (![0, 8] : Fin 2 → Nat) a + S2048x1.size a ≤ S2048x21.size a
  inb_S2048x21_S2048x1_0_9 : ∀ a, (![0, 9] : Fin 2 → Nat) a + S2048x1.size a ≤ S2048x21.size a
  inb_S2048x21_S2048x1_0_10 : ∀ a, (![0, 10] : Fin 2 → Nat) a + S2048x1.size a ≤ S2048x21.size a
  inb_S2048x21_S2048x1_0_11 : ∀ a, (![0, 11] : Fin 2 → Nat) a + S2048x1.size a ≤ S2048x21.size a
  inb_S2048x21_S2048x1_0_12 : ∀ a, (![0, 12] : Fin 2 → Nat) a + S2048x1.size a ≤ S2048x21.size a
  inb_S2048x21_S2048x1_0_13 : ∀ a, (![0, 13] : Fin 2 → Nat) a + S2048x1.size a ≤ S2048x21.size a
  inb_S2048x21_S2048x1_0_14 : ∀ a, (![0, 14] : Fin 2 → Nat) a + S2048x1.size a ≤ S2048x21.size a
  inb_S2048x21_S2048x1_0_15 : ∀ a, (![0, 15] : Fin 2 → Nat) a + S2048x1.size a ≤ S2048x21.size a
  inb_S2048x21_S2048x1_0_16 : ∀ a, (![0, 16] : Fin 2 → Nat) a + S2048x1.size a ≤ S2048x21.size a
  inb_S2048x21_S2048x1_0_17 : ∀ a, (![0, 17] : Fin 2 → Nat) a + S2048x1.size a ≤ S2048x21.size a
  inb_S2048x21_S2048x1_0_18 : ∀ a, (![0, 18] : Fin 2 → Nat) a + S2048x1.size a ≤ S2048x21.size a
  inb_S2048x21_S2048x1_0_19 : ∀ a, (![0, 19] : Fin 2 → Nat) a + S2048x1.size a ≤ S2048x21.size a
  inb_S2048x21_S2048x1_0_20 : ∀ a, (![0, 20] : Fin 2 → Nat) a + S2048x1.size a ≤ S2048x21.size a
  shapeCasts_S4194304x1_S4194304 : S4194304x1.ShapeCasts S4194304
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S4194304x1.size a
  hwx0_0 : ∀ i : grid0.Coords, EltTy.bits .f32 = 32 ∨ (Rect.block (s := S4194304x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x21.size a ≤ S4194304x21.size a
  hwx0_1 : ∀ i : grid0.Coords, EltTy.bits .f32 = 32 ∨ (Rect.block (s := S4194304x21) S2048x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4194304x1.size a
  hwx0_2 : ∀ i : grid0.Coords, EltTy.bits .f32 = 32 ∨ (Rect.block (s := S4194304x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4194304x1.size a
  hwx0_3 : ∀ i : grid0.Coords, EltTy.bits .f32 = 32 ∨ (Rect.block (s := S4194304x1) S2048x1.size (cc0_transform_3 i) (hinb0_3 i)).WholeWords (EltTy.packing .f32)

variable [Facts₀]

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304 : Shape := ⟨1, ![4194304]⟩
abbrev S4194304x21 : Shape := ⟨2, ![4194304, 21]⟩
abbrev S4194304x1 : Shape := ⟨2, ![4194304, 1]⟩
abbrev S4194304x9 : Shape := ⟨2, ![4194304, 9]⟩
abbrev S4194304x3x3 : Shape := ⟨3, ![4194304, 3, 3]⟩
abbrev S4194304x3x1 : Shape := ⟨3, ![4194304, 3, 1]⟩
abbrev S4194304x3 : Shape := ⟨2, ![4194304, 3]⟩
abbrev S_ : Shape := ⟨0, ![]⟩
abbrev S4194304x12 : Shape := ⟨2, ![4194304, 12]⟩
abbrev S4194304x4x3 : Shape := ⟨3, ![4194304, 4, 3]⟩
abbrev S4194304x4x1 : Shape := ⟨3, ![4194304, 4, 1]⟩
abbrev S4194304x4 : Shape := ⟨2, ![4194304, 4]⟩

abbrev nBuf : Space → Nat
  | .hbm => 89
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304x21, .f32⟩
  | .hbm, ⟨2, _⟩ => ⟨S4194304x1, .f32⟩
  | .hbm, ⟨3, _⟩ => ⟨S4194304x9, .f32⟩
  | .hbm, ⟨4, _⟩ => ⟨S4194304x3x3, .f32⟩
  | .hbm, ⟨5, _⟩ => ⟨S4194304x3x1, .f32⟩
  | .hbm, ⟨6, _⟩ => ⟨S4194304x3, .f32⟩
  | .hbm, ⟨7, _⟩ => ⟨S4194304x3x1, .f32⟩
  | .hbm, ⟨8, _⟩ => ⟨S4194304x3, .f32⟩
  | .hbm, ⟨9, _⟩ => ⟨S4194304x3, .f32⟩
  | .hbm, ⟨10, _⟩ => ⟨S4194304x3, .f32⟩
  | .hbm, ⟨11, _⟩ => ⟨S4194304x3, .f32⟩
  | .hbm, ⟨12, _⟩ => ⟨S4194304x3, .f32⟩
  | .hbm, ⟨13, _⟩ => ⟨S4194304x3, .f32⟩
  | .hbm, ⟨14, _⟩ => ⟨S4194304x3, .f32⟩
  | .hbm, ⟨15, _⟩ => ⟨S_, .f32⟩
  | .hbm, ⟨16, _⟩ => ⟨S4194304x3, .f32⟩
  | .hbm, ⟨17, _⟩ => ⟨S4194304x3, .f32⟩
  | .hbm, ⟨18, _⟩ => ⟨S4194304x3, .f32⟩
  | .hbm, ⟨19, _⟩ => ⟨S4194304x3, .f32⟩
  | .hbm, ⟨20, _⟩ => ⟨S_, .f32⟩
  | .hbm, ⟨21, _⟩ => ⟨S4194304x3, .f32⟩
  | .hbm, ⟨22, _⟩ => ⟨S4194304x3, .f32⟩
  | .hbm, ⟨23, _⟩ => ⟨S4194304x3, .f32⟩
  | .hbm, ⟨24, _⟩ => ⟨S4194304x3, .f32⟩
  | .hbm, ⟨25, _⟩ => ⟨S4194304x3, .f32⟩
  | .hbm, ⟨26, _⟩ => ⟨S_, .f32⟩
  | .hbm, ⟨27, _⟩ => ⟨S4194304x3, .f32⟩
  | .hbm, ⟨28, _⟩ => ⟨S4194304x3, .f32⟩
  | .hbm, ⟨29, _⟩ => ⟨S4194304x1, .f32⟩
  | .hbm, ⟨30, _⟩ => ⟨S4194304x1, .f32⟩
  | .hbm, ⟨31, _⟩ => ⟨S4194304x1, .f32⟩
  | .hbm, ⟨32, _⟩ => ⟨S4194304x1, .f32⟩
  | .hbm, ⟨33, _⟩ => ⟨S4194304x3, .f32⟩
  | .hbm, ⟨34, _⟩ => ⟨S4194304x3, .f32⟩
  | .hbm, ⟨35, _⟩ => ⟨S4194304x3, .f32⟩
  | .hbm, ⟨36, _⟩ => ⟨S4194304x3, .f32⟩
  | .hbm, ⟨37, _⟩ => ⟨S4194304x3, .f32⟩
  | .hbm, ⟨38, _⟩ => ⟨S4194304x3, .f32⟩
  | .hbm, ⟨39, _⟩ => ⟨S_, .f32⟩
  | .hbm, ⟨40, _⟩ => ⟨S4194304x3, .f32⟩
  | .hbm, ⟨41, _⟩ => ⟨S4194304x3, .f32⟩
  | .hbm, ⟨42, _⟩ => ⟨S4194304x1, .f32⟩
  | .hbm, ⟨43, _⟩ => ⟨S4194304x1, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x3, .f32⟩
  | .hbm, ⟨48, _⟩ => ⟨S4194304x3, .f32⟩
  | .hbm, ⟨49, _⟩ => ⟨S4194304x3, .f32⟩
  | .hbm, ⟨50, _⟩ => ⟨S4194304x3, .f32⟩
  | .hbm, ⟨51, _⟩ => ⟨S4194304x12, .f32⟩
  | .hbm, ⟨52, _⟩ => ⟨S4194304x4x3, .f32⟩
  | .hbm, ⟨53, _⟩ => ⟨S4194304x4x1, .f32⟩
  | .hbm, ⟨54, _⟩ => ⟨S4194304x4, .f32⟩
  | .hbm, ⟨55, _⟩ => ⟨S4194304x4x1, .f32⟩
  | .hbm, ⟨56, _⟩ => ⟨S4194304x4, .f32⟩
  | .hbm, ⟨57, _⟩ => ⟨S4194304x4x1, .f32⟩
  | .hbm, ⟨58, _⟩ => ⟨S4194304x4, .f32⟩
  | .hbm, ⟨59, _⟩ => ⟨S4194304x4, .f32⟩
  | .hbm, ⟨60, _⟩ => ⟨S4194304x4, .f32⟩
  | .hbm, ⟨61, _⟩ => ⟨S4194304x4, .f32⟩
  | .hbm, ⟨62, _⟩ => ⟨S4194304x4, .f32⟩
  | .hbm, ⟨63, _⟩ => ⟨S4194304x4, .f32⟩
  | .hbm, ⟨64, _⟩ => ⟨S_, .f32⟩
  | .hbm, ⟨65, _⟩ => ⟨S4194304x4, .f32⟩
  | .hbm, ⟨66, _⟩ => ⟨S4194304x4, .f32⟩
  | .hbm, ⟨67, _⟩ => ⟨S4194304x4, .f32⟩
  | .hbm, ⟨68, _⟩ => ⟨S4194304x4, .f32⟩
  | .hbm, ⟨69, _⟩ => ⟨S4194304x4, .f32⟩
  | .hbm, ⟨70, _⟩ => ⟨S4194304x4, .f32⟩
  | .hbm, ⟨71, _⟩ => ⟨S4194304x4, .f32⟩
  | .hbm, ⟨72, _⟩ => ⟨S4194304x4, .f32⟩
  | .hbm, ⟨73, _⟩ => ⟨S4194304x4, .f32⟩
  | .hbm, ⟨74, _⟩ => ⟨S4194304x4, .f32⟩
  | .hbm, ⟨75, _⟩ => ⟨S4194304x4, .f32⟩
  | .hbm, ⟨76, _⟩ => ⟨S4194304x4, .f32⟩
  | .hbm, ⟨77, _⟩ => ⟨S4194304x4, .f32⟩
  | .hbm, ⟨78, _⟩ => ⟨S4194304x4, .f32⟩
  | .hbm, ⟨79, _⟩ => ⟨S_, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S_, .f32⟩
  | .hbm, ⟨85, _⟩ => ⟨S4194304, .f32⟩
  | .hbm, ⟨86, _⟩ => ⟨S_, .f32⟩
  | .hbm, ⟨87, _⟩ => ⟨S4194304, .f32⟩
  | .hbm, ⟨88, _⟩ => ⟨S4194304, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_2 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_3 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_cst_5 : Ref sig .tc := ⟨.hbm, 81, rfl⟩
abbrev main_v73 : Ref sig .tc := ⟨.hbm, 82, rfl⟩
abbrev main_v74 : Ref sig .tc := ⟨.hbm, 83, rfl⟩
abbrev main_cst_6 : Ref sig .tc := ⟨.hbm, 84, rfl⟩
abbrev main_v75 : Ref sig .tc := ⟨.hbm, 85, rfl⟩
abbrev main_cst_7 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  slices_S4194304x21_S4194304x9_0_0 : S4194304x21.Slices ![0, 0] S4194304x9
  shapeCasts_S4194304x9_S4194304x3x3 : S4194304x9.ShapeCasts S4194304x3x3
  slices_S4194304x3x3_S4194304x3x1_0_0_1 : S4194304x3x3.Slices ![0, 0, 1] S4194304x3x1
  shapeCasts_S4194304x3x1_S4194304x3 : S4194304x3x1.ShapeCasts S4194304x3
  slices_S4194304x3x3_S4194304x3x1_0_0_2 : S4194304x3x3.Slices ![0, 0, 2] S4194304x3x1
  bcast_S4194304x1_S4194304x3_0_1 : S4194304x1.BroadcastsInDim S4194304x3 (![0, 1] : Fin 2 → Fin S4194304x3.rank)
  bcast_S_S4194304x3 : S_.BroadcastsInDim S4194304x3 (![] : Fin 0 → Fin S4194304x3.rank)
  slices_S4194304x21_S4194304x12_0_9 : S4194304x21.Slices ![0, 9] S4194304x12
  shapeCasts_S4194304x12_S4194304x4x3 : S4194304x12.ShapeCasts S4194304x4x3
  slices_S4194304x4x3_S4194304x4x1_0_0_0 : S4194304x4x3.Slices ![0, 0, 0] S4194304x4x1
  shapeCasts_S4194304x4x1_S4194304x4 : S4194304x4x1.ShapeCasts S4194304x4
  slices_S4194304x4x3_S4194304x4x1_0_0_1 : S4194304x4x3.Slices ![0, 0, 1] S4194304x4x1
  slices_S4194304x4x3_S4194304x4x1_0_0_2 : S4194304x4x3.Slices ![0, 0, 2] S4194304x4x1
  bcast_S4194304x1_S4194304x4_0_1 : S4194304x1.BroadcastsInDim S4194304x4 (![0, 1] : Fin 2 → Fin S4194304x4.rank)
  bcast_S_S4194304x4 : S_.BroadcastsInDim S4194304x4 (![] : Fin 0 → Fin S4194304x4.rank)
  reducesTo_S4194304x3_S4194304_d1 : S4194304x3.ReducesTo [1] S4194304
  h_S_ : 0 < S_.numel
  reducesTo_S4194304x4_S4194304_d1 : S4194304x4.ReducesTo [1] S4194304

variable [Facts₀]

class Facts : Prop extends Facts₀ where

variable [Facts]
-- ==== Proof.LibDivSign.lean ====
/-
  The sign of a numerator through the extended-real quotient.

  The quotient here is x * y⁻¹ off a zero divisor, and by zero it is the infinity of x's sign: top for x > 0, bottom
  otherwise (so 0 / 0 is bottom). Off a zero divisor the sign of the numerator passes through the quotient, because it
  passes through a product. By a zero divisor it does not in general: (-0) / 0 is bottom while -(0 / 0) is top. But it
  does pass through TWO divisions by the same divisor, whatever the divisor: when the divisor is zero the inner
  quotient is an infinity, never zero, and the outer quotient of an infinity by zero is that infinity again.
-/
import Idealize.ShloMosaic.PureOps.Ideal

noncomputable section

namespace Cert.Lib.DivSign

open Idealize.ShloMosaic

/-- Off a zero divisor, (-x) / y = -(x / y): the quotient is a product and (-x) * z = -(x * z) on the extended reals. -/
theorem div_neg_of_ne_zero (x y : EReal) (hy : y ≠ 0) : Ideal.div (-x) y = -(Ideal.div x y) := by
  simp only [Ideal.div, if_neg hy, neg_mul]

/-- For every divisor t, zero included, (-(n / t)) / t = -((n / t) / t): for t = 0 the inner quotient is top or bottom
    and both sides are the opposite infinity; for t ≠ 0 this is the law off a zero divisor. -/
theorem div_neg_div (n t : EReal) : Ideal.div (-(Ideal.div n t)) t = -(Ideal.div (Ideal.div n t) t) := by
  by_cases ht : t = 0
  · subst ht
    by_cases hn : 0 < n
    · simp [Ideal.div, hn]
    · simp [Ideal.div, hn]
  · exact div_neg_of_ne_zero _ _ ht

end Cert.Lib.DivSign

end
-- ==== Proof.Potential.lean ====
/-
  The pair potential of one sample, over the extended reals.

  A sample is a distance d and twenty-one parameters p 0 … p 20: three Lennard-Jones triples (unused, c, sigma) in
  p 0 … p 8 and four Gaussian triples (amplitude, mean, width) in p 9 … p 20. Its energy is

      sum over the LJ triples of  4 c ((sigma/d)^12 - (sigma/d)^6)
    + sum over the Gaussians  of  a exp (-(d - mean)^2 / (2 width^2)),

  and its force is the sum of the NEGATED terms

      4 c (4 sigma^6 / d^7 - 12 sigma^12 / d^13)      and      ((a (d - mean) e (d - mean)^2) / width^2) / width^2,

  e the Gaussian's exponential. Every power is the product both programs multiply out (squares of squares), so the
  powers below are those products and no law about powers is needed.

  The force is stated as a sum of negated terms, not as the negation of a sum: on the extended reals
  -(x + y) = -x + -y fails when x and y are opposite infinities, while sums may be regrouped and reordered freely.
  Two programs compute this value in two arrangements. One starts from zero and adds (for the force: subtracts) one
  term after the other. The other sums the three LJ terms and the four Gaussian terms apart, from zero each, and adds
  the two sums; its force terms carry their sign inside: the factor -4 in place of 4, and the Gaussian term negated
  between its two divisions. The sign laws that join them:
    * (-x) * y = -(x * y), which holds everywhere on the extended reals;
    * (-(n / t)) / t = -((n / t) / t) for the quotient that sends x / 0 to the infinity of x's sign (and 0 / 0 to the
      bottom). For t = 0 the inner quotient is an infinity, never zero, and the two sides are the same infinity; for
      t ≠ 0 the quotient is a product and the first law applies. (For one division alone the law fails at 0 / 0.)
  No law here needs its arguments finite.
-/
import Idealize.ShloMosaic.PureOps.Ideal
import Idealize.ShloMosaic.PureOps.Ideal.Laws
import proofs.«119446_j1288490189271_2_alg».proof.Proof.LibDivSign

noncomputable section

namespace Cert.PairPotential

open Idealize.ShloMosaic

/-! ## The literals -/

/-- The word of 4.0. -/
abbrev four : EReal := Ideal.ofBits .f32 0x40800000#32
/-- The word of -4.0. -/
abbrev negFour : EReal := Ideal.ofBits .f32 0xC0800000#32
/-- The word of 12.0. -/
abbrev twelve : EReal := Ideal.ofBits .f32 0x41400000#32
/-- The word of 2.0. -/
abbrev two : EReal := Ideal.ofBits .f32 0x40000000#32
/-- The word of 0.0. -/
abbrev zero : EReal := Ideal.ofBits .f32 0x00000000#32

theorem four_eq : four = ((4 : ℝ) : EReal) := by
  simp [four, Ideal.ofBits, Ideal.ieee, -EReal.coe_mul]; norm_num

theorem negFour_eq : negFour = ((-4 : ℝ) : EReal) := by
  simp [negFour, Ideal.ofBits, Ideal.ieee, -EReal.coe_mul]; norm_num

/-- The word of -4.0 denotes the negative of what the word of 4.0 denotes. -/
theorem negFour_eq_neg : negFour = -four := by
  rw [negFour_eq, four_eq, ← EReal.coe_neg]

theorem zero_eq : zero = 0 := Ideal.ofBits_zero_f32

/-! ## The powers, as multiplied out -/

/-- x^6 as x^2 (x^2 x^2). -/
def pow6 (x : EReal) : EReal := (x * x) * ((x * x) * (x * x))
/-- x^12 as x^6 x^6. -/
def pow12 (x : EReal) : EReal := pow6 x * pow6 x
/-- x^7 as (x x^2)(x^2 x^2). -/
def pow7 (x : EReal) : EReal := (x * (x * x)) * ((x * x) * (x * x))
/-- x^12 as x^4 (x^4 x^4). -/
def pow12' (x : EReal) : EReal := ((x * x) * (x * x)) * (((x * x) * (x * x)) * ((x * x) * (x * x)))
/-- x^13 as (x x^4)(x^4 x^4). -/
def pow13 (x : EReal) : EReal := (x * ((x * x) * (x * x))) * (((x * x) * (x * x)) * ((x * x) * (x * x)))

/-! ## One term of each kind -/

/-- One Lennard-Jones energy term, 4 c ((sigma/d)^12 - (sigma/d)^6). -/
def ljEnergy (c sigma d : EReal) : EReal :=
  (four * c) * (pow12 (Ideal.div sigma d) - pow6 (Ideal.div sigma d))

/-- The bracket of a Lennard-Jones force term, 4 sigma^6 / d^7 - 12 sigma^12 / d^13. -/
def ljBracket (sigma d : EReal) : EReal :=
  Ideal.div (four * pow6 sigma) (pow7 d) - Ideal.div (twelve * pow12' sigma) (pow13 d)

/-- One Lennard-Jones force term before its sign, 4 c (4 sigma^6 / d^7 - 12 sigma^12 / d^13). -/
def ljForce (c sigma d : EReal) : EReal := (four * c) * ljBracket sigma d

/-- A Gaussian's exponential, exp (-(d - mean)^2 / (2 width^2)). -/
def gaussExp (mean width d : EReal) : EReal :=
  Ideal.exp (Ideal.div (-((d - mean) * (d - mean))) (two * (width * width)))

/-- One Gaussian energy term. -/
def gaussEnergy (a mean width d : EReal) : EReal := a * gaussExp mean width d

/-- The numerator of a Gaussian force term, a (d - mean) e (d - mean)^2. -/
def gaussNum (a mean width d : EReal) : EReal :=
  ((a * (d - mean)) * gaussExp mean width d) * ((d - mean) * (d - mean))

/-- One Gaussian force term before its sign: the numerator divided by width^2 twice. -/
def gaussForce (a mean width d : EReal) : EReal :=
  Ideal.div (Ideal.div (gaussNum a mean width d) (width * width)) (width * width)

/-! ## A sample's energy and force -/

/-- The energy of a sample. -/
def energy (d : EReal) (p : Fin 21 → EReal) : EReal :=
  (ljEnergy (p 1) (p 2) d + ljEnergy (p 4) (p 5) d + ljEnergy (p 7) (p 8) d)
    + (gaussEnergy (p 9) (p 10) (p 11) d + gaussEnergy (p 12) (p 13) (p 14) d
        + gaussEnergy (p 15) (p 16) (p 17) d + gaussEnergy (p 18) (p 19) (p 20) d)

/-- The force on a sample: the sum of the negated terms. -/
def force (d : EReal) (p : Fin 21 → EReal) : EReal :=
  (-ljForce (p 1) (p 2) d + -ljForce (p 4) (p 5) d + -ljForce (p 7) (p 8) d)
    + (-gaussForce (p 9) (p 10) (p 11) d + -gaussForce (p 12) (p 13) (p 14) d
        + -gaussForce (p 15) (p 16) (p 17) d + -gaussForce (p 18) (p 19) (p 20) d)

/-! ## The sign laws -/

/-- The sign passes through two divisions by the same divisor: for a zero divisor the inner quotient is an infinity
    and both sides are the opposite infinity; otherwise the quotients are products. -/
theorem div_neg_div (n t : EReal) : Ideal.div (-(Ideal.div n t)) t = -(Ideal.div (Ideal.div n t) t) :=
  Cert.Lib.DivSign.div_neg_div n t

/-- The factor -4 carries the term's sign. -/
theorem negFour_mul (c x : EReal) : (negFour * c) * x = -((four * c) * x) := by
  rw [negFour_eq_neg, neg_mul, neg_mul]

/-- Subtracting from the zero word is negating. -/
theorem zero_sub' (x : EReal) : zero - x = -x := by
  rw [zero_eq, zero_sub]

/-! ## The two arrangements -/

/-- Starting from zero and adding one term after the other gives the energy. -/
theorem energy_of_chain (d : EReal) (p : Fin 21 → EReal) :
    zero + ljEnergy (p 1) (p 2) d + ljEnergy (p 4) (p 5) d + ljEnergy (p 7) (p 8) d
        + gaussEnergy (p 9) (p 10) (p 11) d + gaussEnergy (p 12) (p 13) (p 14) d
        + gaussEnergy (p 15) (p 16) (p 17) d + gaussEnergy (p 18) (p 19) (p 20) d
      = energy d p := by
  rw [zero_eq, zero_add]; unfold energy; simp only [add_assoc]

/-- Starting from zero and subtracting one term after the other gives the force. -/
theorem force_of_chain (d : EReal) (p : Fin 21 → EReal) :
    zero - ljForce (p 1) (p 2) d - ljForce (p 4) (p 5) d - ljForce (p 7) (p 8) d
        - gaussForce (p 9) (p 10) (p 11) d - gaussForce (p 12) (p 13) (p 14) d
        - gaussForce (p 15) (p 16) (p 17) d - gaussForce (p 18) (p 19) (p 20) d
      = force d p := by
  rw [zero_eq]; unfold force; simp only [sub_eq_add_neg, zero_add, add_assoc]

/-- Summing the LJ terms and the Gaussian terms apart, each from zero, gives the energy. -/
theorem energy_of_sums (d : EReal) (p : Fin 21 → EReal) (L : Fin 3 → EReal) (G : Fin 4 → EReal)
    (hL0 : L 0 = ljEnergy (p 1) (p 2) d) (hL1 : L 1 = ljEnergy (p 4) (p 5) d) (hL2 : L 2 = ljEnergy (p 7) (p 8) d)
    (hG0 : G 0 = gaussEnergy (p 9) (p 10) (p 11) d) (hG1 : G 1 = gaussEnergy (p 12) (p 13) (p 14) d)
    (hG2 : G 2 = gaussEnergy (p 15) (p 16) (p 17) d) (hG3 : G 3 = gaussEnergy (p 18) (p 19) (p 20) d) :
    (zero + ∑ k : Fin 3, L k) + (zero + ∑ k : Fin 4, G k) = energy d p := by
  rw [zero_eq, zero_add, zero_add, Fin.sum_univ_three, Fin.sum_univ_four, hL0, hL1, hL2, hG0, hG1, hG2, hG3]; rfl

/-- Summing the signed LJ terms and the signed Gaussian terms apart, each from zero, gives the force. -/
theorem force_of_sums (d : EReal) (p : Fin 21 → EReal) (L : Fin 3 → EReal) (G : Fin 4 → EReal)
    (hL0 : L 0 = -ljForce (p 1) (p 2) d) (hL1 : L 1 = -ljForce (p 4) (p 5) d) (hL2 : L 2 = -ljForce (p 7) (p 8) d)
    (hG0 : G 0 = -gaussForce (p 9) (p 10) (p 11) d) (hG1 : G 1 = -gaussForce (p 12) (p 13) (p 14) d)
    (hG2 : G 2 = -gaussForce (p 15) (p 16) (p 17) d) (hG3 : G 3 = -gaussForce (p 18) (p 19) (p 20) d) :
    (zero + ∑ k : Fin 3, L k) + (zero + ∑ k : Fin 4, G k) = force d p := by
  rw [zero_eq, zero_add, zero_add, Fin.sum_univ_three, Fin.sum_univ_four, hL0, hL1, hL2, hG0, hG1, hG2, hG3]; rfl

end Cert.PairPotential

end
-- ==== Proof.KernelRow.lean ====
/-
  One row of the kernel's block.

  At a grid point the kernel holds 2048 samples: a column of distances (a block of 2048 x 1) and their parameter rows (a
  block of 2048 x 21). It loads the distance column and eighteen one-column rectangles of the parameter block (columns
  1, 2, 4, 5, 7, 8 and 9 ... 20), computes on whole columns, and stores two columns: the energies and the forces. Every
  operation on columns acts row by row, so row r of either stored column is a function of the distance at row r and of
  row r of the parameter block: the sample's energy, and the sample's force.

  The kernel adds one term after the other into a column of zeros (for the force: subtracts), and writes the negated
  square in each Gaussian's exponent as zero minus the square.
-/
import proofs.«119446_j1288490189271_2_alg».proof.Proof.Gen.KernelIdeal.Frame
import proofs.«119446_j1288490189271_2_alg».proof.Proof.Potential
import Idealize.ShloMosaic.Lib.Pipeline.Value
import Idealize.ShloMosaic.Lib.ValueIdx

noncomputable section

namespace Cert.KernelIdeal.RowValue

open Cert.KernelIdeal Cert.KernelIdeal.Gen Idealize.ShloMosaic Idealize.ShloMosaic.TcCoe Idealize.ShloMosaic.ValueIdx
open Cert.PairPotential

/-- The origin, as the stores and the whole-block load spell it. -/
theorem origin_zero : (![0, 0] : Fin 2 → Nat) = fun _ => 0 := funext fun a => by fin_cases a <;> rfl

/-- The one-column rectangle at column k of the parameter block, read at row r, is the block's entry (r, k). -/
theorem ld_column (x1 : Vec Ideal S2048x21 .f32) (k : Nat) (hk : k < 21)
    (inb : ∀ a, (![0, k] : Fin 2 → Nat) a + S2048x1.size a ≤ S2048x21.size a) (r : Fin 2048) :
    View.ld x1 (Rect.unit (s := S2048x21) ![0, k] S2048x1.size inb) (ix2 r (0 : Fin 1)) = x1 (ix2 r ⟨k, hk⟩) := by
  show x1 ((Rect.unit (s := S2048x21) ![0, k] S2048x1.size inb).emb (ix2 r (0 : Fin 1))) = _
  refine congrArg x1 (funext fun a => Fin.ext ?_)
  match a with
  | ⟨0, _⟩ => show 0 + 1 * r.val = r.val; omega
  | ⟨1, _⟩ => show k + 1 * 0 = k; omega

/-- The shape cast of a column to its own shape is the column. -/
theorem pay5_eq (d : Vec Ideal S2048x1 .f32) : k0_pay5 (F := Ideal) d = d := by
  unfold k0_pay5; exact shapeCast_self _ _

/-! ## The four exponentials -/

theorem exp_pay12 (d m w : FVec Ideal S2048x1 .f32) :
    k0_pay12 (F := Ideal) d m w = fun y => gaussExp (m y) (w y) (d y) := by
  funext y
  show Ideal.exp (Ideal.div (zero - (d y - m y) * (d y - m y)) (two * (w y * w y))) = _
  rw [zero_sub']; rfl

theorem exp_pay16 (d m w : FVec Ideal S2048x1 .f32) :
    k0_pay16 (F := Ideal) d m w = fun y => gaussExp (m y) (w y) (d y) := by
  funext y
  show Ideal.exp (Ideal.div (zero - (d y - m y) * (d y - m y)) (two * (w y * w y))) = _
  rw [zero_sub']; rfl

theorem exp_pay19 (d m w : FVec Ideal S2048x1 .f32) :
    k0_pay19 (F := Ideal) d m w = fun y => gaussExp (m y) (w y) (d y) := by
  funext y
  show Ideal.exp (Ideal.div (zero - (d y - m y) * (d y - m y)) (two * (w y * w y))) = _
  rw [zero_sub']; rfl

theorem exp_pay2 (d m w : FVec Ideal S2048x1 .f32) :
    k0_pay2 (F := Ideal) d m w = fun y => gaussExp (m y) (w y) (d y) := by
  funext y
  show Ideal.exp (Ideal.div (zero - (d y - m y) * (d y - m y)) (two * (w y * w y))) = _
  rw [zero_sub']; rfl

/-! ## The two stored columns at a row -/

/-- The energy column at a row, over any loaded columns: zero, then the three LJ terms and the four Gaussian terms
    added one after the other. -/
theorem energy_payload (d c0 s0 c1 s1 c2 s2 a0 m0 w0 a1 m1 w1 a2 m2 w2 a3 m3 w3 : Vec Ideal S2048x1 .f32)
    (y : S2048x1.Idx) :
    k0_pay3 (F := Ideal) (k0_pay5 d) (k0_pay20 (k0_pay5 d) (k0_pay13 (k0_pay5 d) (k0_pay9 (k0_pay5 d)
        (k0_pay6 d c0 s0) c1 s1 c2 s2) a0 m0 w0) a1 m1 w1 a2 m2 w2) a3 m3 w3 y
      = zero + ljEnergy (c0 y) (s0 y) (d y) + ljEnergy (c1 y) (s1 y) (d y) + ljEnergy (c2 y) (s2 y) (d y)
          + gaussEnergy (a0 y) (m0 y) (w0 y) (d y) + gaussEnergy (a1 y) (m1 y) (w1 y) (d y)
          + gaussEnergy (a2 y) (m2 y) (w2 y) (d y) + gaussEnergy (a3 y) (m3 y) (w3 y) (d y) := by
  simp only [k0_pay3, k0_pay20, k0_pay13, k0_pay9, k0_pay6, pay5_eq, exp_pay2, exp_pay12, exp_pay16, exp_pay19]
  rfl

/-- The force column at a row, over any loaded columns: zero, then the three LJ terms and the four Gaussian terms
    subtracted one after the other. -/
theorem force_payload (d c0 s0 c1 s1 c2 s2 a0 m0 w0 a1 m1 w1 a2 m2 w2 a3 m3 w3 : Vec Ideal S2048x1 .f32)
    (y : S2048x1.Idx) :
    k0_pay4 (F := Ideal) (k0_pay5 d) (k0_pay17 (k0_pay5 d) (k0_pay10 (k0_pay5 d) (k0_pay8 (k0_pay5 d)
        (k0_pay7 d c0 s0) c1 s1) c2 s2) (k0_pay14 (k0_pay5 d) a0 m0 w0) a1 m1 w1) w2
        (k0_pay21 (k0_pay5 d) a2 m2 w2) a3 m3 w3 y
      = zero - ljForce (c0 y) (s0 y) (d y) - ljForce (c1 y) (s1 y) (d y) - ljForce (c2 y) (s2 y) (d y)
          - gaussForce (a0 y) (m0 y) (w0 y) (d y) - gaussForce (a1 y) (m1 y) (w1 y) (d y)
          - gaussForce (a2 y) (m2 y) (w2 y) (d y) - gaussForce (a3 y) (m3 y) (w3 y) (d y) := by
  simp only [k0_pay4, k0_pay17, k0_pay10, k0_pay8, k0_pay7, k0_pay14, k0_pay21, pay5_eq, exp_pay2, exp_pay12,
    exp_pay16, exp_pay19]
  rfl

/-! ## The rows of what the body leaves in the two output blocks -/

/-- Row r of the energy block the body leaves is the energy of the sample at row r of the input blocks. -/
theorem energy_row (x0 : Vec Ideal S2048x1 .f32) (x1 : Vec Ideal S2048x21 .f32) (r : Fin 2048) :
    out0_2 (F := Ideal) x0 x1 (ix2 r (0 : Fin 1)) = energy (x0 (ix2 r (0 : Fin 1))) (fun j => x1 (ix2 r j)) := by
  unfold out0_2
  rw [View.canon_unit_zero origin_zero]
  simp only [View.ld_unit_zero (S := S2048x1) origin_zero]
  rw [energy_payload]
  rw [ld_column x1 1 (by omega) _ r, ld_column x1 2 (by omega) _ r, ld_column x1 4 (by omega) _ r,
    ld_column x1 5 (by omega) _ r, ld_column x1 7 (by omega) _ r, ld_column x1 8 (by omega) _ r,
    ld_column x1 9 (by omega) _ r, ld_column x1 10 (by omega) _ r, ld_column x1 11 (by omega) _ r,
    ld_column x1 12 (by omega) _ r, ld_column x1 13 (by omega) _ r, ld_column x1 14 (by omega) _ r,
    ld_column x1 15 (by omega) _ r, ld_column x1 16 (by omega) _ r, ld_column x1 17 (by omega) _ r,
    ld_column x1 18 (by omega) _ r, ld_column x1 19 (by omega) _ r, ld_column x1 20 (by omega) _ r]
  exact energy_of_chain (x0 (ix2 r (0 : Fin 1))) (fun j => x1 (ix2 r j))

/-- Row r of the force block the body leaves is the force on the sample at row r of the input blocks. -/
theorem force_row (x0 : Vec Ideal S2048x1 .f32) (x1 : Vec Ideal S2048x21 .f32) (r : Fin 2048) :
    out0_3 (F := Ideal) x0 x1 (ix2 r (0 : Fin 1)) = force (x0 (ix2 r (0 : Fin 1))) (fun j => x1 (ix2 r j)) := by
  unfold out0_3
  rw [View.canon_unit_zero origin_zero]
  simp only [View.ld_unit_zero (S := S2048x1) origin_zero]
  rw [force_payload]
  rw [ld_column x1 1 (by omega) _ r, ld_column x1 2 (by omega) _ r, ld_column x1 4 (by omega) _ r,
    ld_column x1 5 (by omega) _ r, ld_column x1 7 (by omega) _ r, ld_column x1 8 (by omega) _ r,
    ld_column x1 9 (by omega) _ r, ld_column x1 10 (by omega) _ r, ld_column x1 11 (by omega) _ r,
    ld_column x1 12 (by omega) _ r, ld_column x1 13 (by omega) _ r, ld_column x1 14 (by omega) _ r,
    ld_column x1 15 (by omega) _ r, ld_column x1 16 (by omega) _ r, ld_column x1 17 (by omega) _ r,
    ld_column x1 18 (by omega) _ r, ld_column x1 19 (by omega) _ r, ld_column x1 20 (by omega) _ r]
  exact force_of_chain (x0 (ix2 r (0 : Fin 1))) (fun j => x1 (ix2 r j))

end Cert.KernelIdeal.RowValue

end
-- ==== Proof.KernelArray.lean ====
/-
  From blocks to arrays.

  The grid has 2048 points. At point t the kernel is handed rows 2048 t ... 2048 t + 2047 of the distance column (an
  array of 4194304 x 1) and of the parameter array (4194304 x 21), and writes back the same rows of the energy column
  and of the force column. Row p of a block at point t is row 2048 t + p of its array, for all four arrays, so by the
  row-by-row reading of the body, what point t writes back is the block of ONE function of the two input arrays: at row
  i the energy (or the force) of the sample whose distance is entry (i, 0) of the distance column and whose parameters
  are row i of the parameter array. The 2048 blocks of 2048 rows tile the 4194304 rows (row i is in block i / 2048), so
  after the last write-back each output column holds that function everywhere.
-/
import proofs.«119446_j1288490189271_2_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx Cert.PairPotential
open Idealize.ShloMosaic.Pipeline (Dat)

variable (m : (ℓ : Loc nD τ sig) → Buf (Elt Ideal) ℓ) (ρ : Dev nD → PrngReg)

/-- The row an index of a one-column array names. -/
def rowOf (i : S4194304x1.Idx) : Fin 4194304 := ⟨(i 0).val, (i 0).isLt⟩

/-- The energy column as one function of the distance column and the parameter array. -/
def energies (a0 : S4194304x1.Idx → EReal) (a1 : S4194304x21.Idx → EReal) : S4194304x1.Idx → EReal :=
  fun i => energy (a0 (ix2 (rowOf i) (0 : Fin 1))) (fun j => a1 (ix2 (rowOf i) j))

/-- The force column as one function of the distance column and the parameter array. -/
def forces (a0 : S4194304x1.Idx → EReal) (a1 : S4194304x21.Idx → EReal) : S4194304x1.Idx → EReal :=
  fun i => force (a0 (ix2 (rowOf i) (0 : Fin 1))) (fun j => a1 (ix2 (rowOf i) j))

/-- The four index maps, decided over the grid: at point t every window is at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the distance block at point t is entry (2048 t + p, 0) of the distance column, and row p of the parameter
    block is row 2048 t + p of the parameter array: the rows the output blocks' row p names. -/
theorem blocks_read (c : Dev nD) (t : Fin cfg0.N) (p : Fin 2048) (i : S4194304x1.Idx)
    (hi : (i 0).val = t.val * 2048 + p.val) :
    energy (iblk m c 0 t (ix2 p (0 : Fin 1))) (fun j : Fin 21 => iblk m c 1 t (ix2 p j))
        = energies (V m c main_v0) (V m c main_arg1) i
    ∧ force (iblk m c 0 t (ix2 p (0 : Fin 1))) (fun j : Fin 21 => iblk m c 1 t (ix2 p j))
        = forces (V m c main_v0) (V m c main_arg1) i := by
  obtain ⟨e0, e1, e2, e3, e4, e5, e6, e7⟩ := idx_facts t
  have h0 : iblk m c 0 t (ix2 p (0 : Fin 1)) = V m c main_v0 (ix2 (rowOf i) (0 : Fin 1)) := by
    show V m c main_v0 (((cfg0.win 0).blk t).view.emb (ix2 p (0 : Fin 1))) = _
    refine congrArg (V m c main_v0) (funext fun a => Fin.ext ?_)
    match a with
    | ⟨0, _⟩ => show win0_0.index t (0 : Fin 2) * 2048 + 1 * p.val = (i 0).val; omega
    | ⟨1, _⟩ => show win0_0.index t (1 : Fin 2) * 1 + 1 * 0 = 0; omega
  have h1 : (fun j : Fin 21 => iblk m c 1 t (ix2 p j)) = fun j => V m c main_arg1 (ix2 (rowOf i) j) := by
    funext j
    show V m c main_arg1 (((cfg0.win 1).blk t).view.emb (ix2 p j)) = _
    refine congrArg (V m c main_arg1) (funext fun a => Fin.ext ?_)
    match a with
    | ⟨0, _⟩ => show win0_1.index t (0 : Fin 2) * 2048 + 1 * p.val = (i 0).val; omega
    | ⟨1, _⟩ => show win0_1.index t (1 : Fin 2) * 21 + 1 * j.val = j.val; omega
  rw [h0, h1]
  exact ⟨rfl, rfl⟩

/-! ## What a point writes back -/

/-- What point t writes back to the energy column is block t of the energy function of the arrays as the region finds
    them. -/
theorem energy_flushed (c : Dev nD) (t : Fin cfg0.N) :
    (dats m 0 c).flushed 2 t
      = ((cfg0.win 2).blk t).view.read (Elt Ideal) (energies (V m c main_v0) (V m c main_arg1)) := by
  show (cfg0.win 2).cut (grid0.coords t) ((dats m 0 c).after 2 t) = _
  rw [after0_2]
  obtain ⟨e0, e1, e2, e3, e4, e5, e6, e7⟩ := idx_facts t
  funext j
  obtain ⟨p, q, rfl⟩ : ∃ (p : Fin 2048) (q : Fin 1), j = ix2 p q := ⟨j 0, j 1, eq_ix2 j⟩
  obtain rfl : q = 0 := Subsingleton.elim _ _
  show out0_2 (iblk m c 0 t) (iblk m c 1 t) (ix2 p (0 : Fin 1))
    = energies (V m c main_v0) (V m c main_arg1) (((cfg0.win 2).blk t).view.emb (ix2 p (0 : Fin 1)))
  refine (RowValue.energy_row (iblk m c 0 t) (iblk m c 1 t) p).trans ?_
  exact (blocks_read m c t p _ (by show win0_2.index t (0 : Fin 2) * 2048 + 1 * p.val = _; omega)).1

/-- What point t writes back to the force column is block t of the force function of the arrays as the region finds
    them. -/
theorem force_flushed (c : Dev nD) (t : Fin cfg0.N) :
    (dats m 0 c).flushed 3 t
      = ((cfg0.win 3).blk t).view.read (Elt Ideal) (forces (V m c main_v0) (V m c main_arg1)) := by
  show (cfg0.win 3).cut (grid0.coords t) ((dats m 0 c).after 3 t) = _
  rw [after0_3]
  obtain ⟨e0, e1, e2, e3, e4, e5, e6, e7⟩ := idx_facts t
  funext j
  obtain ⟨p, q, rfl⟩ : ∃ (p : Fin 2048) (q : Fin 1), j = ix2 p q := ⟨j 0, j 1, eq_ix2 j⟩
  obtain rfl : q = 0 := Subsingleton.elim _ _
  show out0_3 (iblk m c 0 t) (iblk m c 1 t) (ix2 p (0 : Fin 1))
    = forces (V m c main_v0) (V m c main_arg1) (((cfg0.win 3).blk t).view.emb (ix2 p (0 : Fin 1)))
  refine (RowValue.force_row (iblk m c 0 t) (iblk m c 1 t) p).trans ?_
  exact (blocks_read m c t p _ (by show win0_3.index t (0 : Fin 2) * 2048 + 1 * p.val = _; omega)).2

/-! ## The blocks tile the columns -/

/-- An index of the energy column is in point t's block iff each coordinate is in the block's range on its axis. -/
theorem mem_blk2 (t : Fin cfg0.N) (i : S4194304x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v1_0).slice (win0_2.rect t)).set ↔ _
  rw [View.set_slice_whole, Rect.mem_set_unit]
  exact Iff.rfl

/-- The same for the force column. -/
theorem mem_blk3 (t : Fin cfg0.N) (i : S4194304x1.Idx) :
    i ∈ ((cfg0.win 3).blk t).view.set ↔ ∀ a : Fin 2, win0_3.index t a * S2048x1.size a ≤ (i a).val
      ∧ (i a).val < win0_3.index t a * S2048x1.size a + S2048x1.size a := by
  show i ∈ ((View.whole main_v1_1).slice (win0_3.rect t)).set ↔ _
  rw [View.set_slice_whole, Rect.mem_set_unit]
  exact Iff.rfl

/-- The grid has 2048 points. -/
theorem grid_points : cfg0.N = 2048 := by decide

/-- Row i of the energy column is in the block of point i / 2048, which writes back. -/
theorem energy_cover (i : S4194304x1.Idx) :
    ∃ t : Fin cfg0.N, (cfg0.win 2).flush t = true ∧ i ∈ ((cfg0.win 2).blk t).view.set := by
  have hi0 : (i 0).val < 4194304 := (i 0).isLt
  have hi1 : (i 1).val < 1 := (i 1).isLt
  let t : Fin cfg0.N := ⟨(i 0).val / 2048, by rw [grid_points]; omega⟩
  have ht : t.val = (i 0).val / 2048 := rfl
  obtain ⟨e0, e1, e2, e3, e4, e5, e6, e7⟩ := idx_facts t
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- Row i of the force column is in the block of point i / 2048, which writes back. -/
theorem force_cover (i : S4194304x1.Idx) :
    ∃ t : Fin cfg0.N, (cfg0.win 3).flush t = true ∧ i ∈ ((cfg0.win 3).blk t).view.set := by
  have hi0 : (i 0).val < 4194304 := (i 0).isLt
  have hi1 : (i 1).val < 1 := (i 1).isLt
  let t : Fin cfg0.N := ⟨(i 0).val / 2048, by rw [grid_points]; omega⟩
  have ht : t.val = (i 0).val / 2048 := rfl
  obtain ⟨e0, e1, e2, e3, e4, e5, e6, e7⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1 ≤ (i 1).val ∧ (i 1).val < win0_3.index t (1 : Fin 2) * 1 + 1; omega

/-! ## The two columns after the region -/

/-- After the last write-back the energy column is the energy function of the arrays as the region finds them. -/
theorem energy_final (c : Dev nD) :
    (dats m 0 c).arrAt 2 cfg0.N = energies (V m c main_v0) (V m c main_arg1) :=
  (dats m 0 c).arrAt_eq_of_cover 2 (energies (V m c main_v0) (V m c main_arg1))
    (fun t _ => energy_flushed m c t) energy_cover

/-- After the last write-back the force column is the force function of the arrays as the region finds them. -/
theorem force_final (c : Dev nD) :
    (dats m 0 c).arrAt 3 cfg0.N = forces (V m c main_v0) (V m c main_arg1) :=
  (dats m 0 c).arrAt_eq_of_cover 3 (forces (V m c main_v0) (V m c main_arg1))
    (fun t _ => force_flushed m c t) force_cover

end Cert.KernelIdeal.ArrayValue

end
-- ==== Proof.Result.lean ====
/-
  The two results as whole arrays.

  Both programs take a vector of 4194304 distances and an array of 4194304 x 21 parameters and return two vectors of
  4194304 numbers. Entry i of the first is the energy, and entry i of the second the force, of the sample whose
  distance is entry i of the distances and whose parameters are row i of the parameter array.
-/
import proofs.«119446_j1288490189271_2_alg».proof.Proof.Potential
import Idealize.ShloMosaic.Lib.ValueIdx

noncomputable section

namespace Cert.PairPotential

open Idealize.ShloMosaic Idealize.ShloMosaic.ValueIdx

/-- The sample an index of a result vector names. -/
def sampleOf (i : (⟨1, ![4194304]⟩ : Shape).Idx) : Fin 4194304 := ⟨(i 0).val, (i 0).isLt⟩

theorem sampleOf_ix1 (r : Fin 4194304) : sampleOf (ix1 r) = r := rfl

/-- The energies of all samples. -/
def energyOf (x0 : (⟨1, ![4194304]⟩ : Shape).Idx → EReal) (x1 : (⟨2, ![4194304, 21]⟩ : Shape).Idx → EReal) :
    (⟨1, ![4194304]⟩ : Shape).Idx → EReal :=
  fun i => energy (x0 (ix1 (sampleOf i))) (fun j => x1 (ix2 (sampleOf i) j))

/-- The forces on all samples. -/
def forceOf (x0 : (⟨1, ![4194304]⟩ : Shape).Idx → EReal) (x1 : (⟨2, ![4194304, 21]⟩ : Shape).Idx → EReal) :
    (⟨1, ![4194304]⟩ : Shape).Idx → EReal :=
  fun i => force (x0 (ix1 (sampleOf i))) (fun j => x1 (ix2 (sampleOf i) j))

/-- A vector that agrees with the energies sample by sample is the energies. -/
theorem eq_energyOf (x0 : (⟨1, ![4194304]⟩ : Shape).Idx → EReal) (x1 : (⟨2, ![4194304, 21]⟩ : Shape).Idx → EReal)
    (v : (⟨1, ![4194304]⟩ : Shape).Idx → EReal)
    (h : ∀ r : Fin 4194304, v (ix1 r) = energy (x0 (ix1 r)) (fun j => x1 (ix2 r j))) : v = energyOf x0 x1 := by
  funext i
  have hi : i = ix1 (sampleOf i) := eq_ix1 i
  rw [hi, h]; rfl

/-- A vector that agrees with the forces sample by sample is the forces. -/
theorem eq_forceOf (x0 : (⟨1, ![4194304]⟩ : Shape).Idx → EReal) (x1 : (⟨2, ![4194304, 21]⟩ : Shape).Idx → EReal)
    (v : (⟨1, ![4194304]⟩ : Shape).Idx → EReal)
    (h : ∀ r : Fin 4194304, v (ix1 r) = force (x0 (ix1 r)) (fun j => x1 (ix2 r j))) : v = forceOf x0 x1 := by
  funext i
  have hi : i = ix1 (sampleOf i) := eq_ix1 i
  rw [hi, h]; rfl

end Cert.PairPotential

end
-- ==== Proof.KernelRun.lean ====
/-
  The kernel's program, end to end.

  Before the region the program lays the 4194304 distances out as a column (one entry per row); after the region it
  lays the energy column and the force column out as vectors again. Both are changes of shape that keep the row-major
  order, so entry (r, 0) of a column and entry r of the vector are the same number. The region leaves in each output
  column, at every row, the energy (the force) of the sample read off the distance column and the parameter array as
  the region finds them: the distance column is the reshaped distances and no operation before the region writes the
  parameter array. So the program's two results are the energies and the forces of the samples its arguments hold,
  and its arguments end as they began.
-/
import proofs.«119446_j1288490189271_2_alg».proof.Proof.KernelArray
import proofs.«119446_j1288490189271_2_alg».proof.Proof.Result
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.PairPotential Cert.KernelIdeal.ArrayValue
open Idealize.ShloMosaic.Pipeline (Dat)

variable (m : (ℓ : Loc nD τ sig) → Buf (Elt Ideal) ℓ) (ρ : Dev nD → PrngReg)

/-! ## The two changes of shape -/

/-- A vector laid out as a column: entry (r, 0) of the column is entry r of the vector. -/
theorem column_read (x : S4194304.Idx → EReal) (r : Fin 4194304) :
    shapeCast S4194304x1 x shapeCasts_S4194304_S4194304x1 (ix2 r (0 : Fin 1)) = x (ix1 r) :=
  shapeCast_apply x _ (ix2 r (0 : Fin 1)) (ix1 r)
    (by rw [Shape.rowMajor_val_one, Shape.rowMajor_val_two]; show r.val = r.val * 1 + 0; omega)

/-- A column laid out as a vector: entry r of the vector is entry (r, 0) of the column. -/
theorem vector_read (x : S4194304x1.Idx → EReal) (r : Fin 4194304) :
    shapeCast S4194304 x shapeCasts_S4194304x1_S4194304 (ix1 r) = x (ix2 r (0 : Fin 1)) :=
  shapeCast_apply x _ (ix1 r) (ix2 r (0 : Fin 1))
    (by rw [Shape.rowMajor_val_one, Shape.rowMajor_val_two]; show r.val * 1 + 0 = r.val; omega)

/-! ## The arrays the region finds -/

/-- The distance column the region finds is the distances laid out as a column. -/
theorem V_main_v0 (c : Dev nD) :
    (V m c main_v0 : S4194304x1.Idx → EReal)
      = shapeCast S4194304x1 (m ((c : Thread nD τ).loc main_arg0)) shapeCasts_S4194304_S4194304x1 := by
  show StableHlo.after hostOps0 (fun b => m (c, b)) (Proc.devRef .tc main_v0) = _
  after_results; rfl

/-- Row r of the energy column, in terms of the program's arguments. -/
theorem energies_entry (c : Dev nD) (r : Fin 4194304) :
    energies (V m c main_v0) (V m c main_arg1) (ix2 r (0 : Fin 1))
      = energy (m ((c : Thread nD τ).loc main_arg0) (ix1 r)) (fun j => m ((c : Thread nD τ).loc main_arg1) (ix2 r j)) := by
  show energy (V m c main_v0 (ix2 r (0 : Fin 1))) (fun j => V m c main_arg1 (ix2 r j)) = _
  rw [V_main_v0, column_read, V_main_arg1]

/-- Row r of the force column, in terms of the program's arguments. -/
theorem forces_entry (c : Dev nD) (r : Fin 4194304) :
    forces (V m c main_v0) (V m c main_arg1) (ix2 r (0 : Fin 1))
      = force (m ((c : Thread nD τ).loc main_arg0) (ix1 r)) (fun j => m ((c : Thread nD τ).loc main_arg1) (ix2 r j)) := by
  show force (V m c main_v0 (ix2 r (0 : Fin 1))) (fun j => V m c main_arg1 (ix2 r j)) = _
  rw [V_main_v0, column_read, V_main_arg1]

/-! ## The results, after the operations that follow the region -/

/-- The first result: the energy column laid out as a vector, that is, the energies. -/
theorem tail_energy (c : Dev nD) :
    (Pipeline.afterTail₀ cfgs (dats m) 0 (V0 m) [hostOps1] c main_v2 : S4194304.Idx → EReal)
      = energyOf (m ((c : Thread nD τ).loc main_arg0)) (m ((c : Thread nD τ).loc main_arg1)) := by
  have e : Pipeline.withArrays (cfgs 0).spec c (V0 m c) (fun w => (dats m 0 c).arrAt w (cfgs 0).N)
      (Proc.devRef .tc main_v1_0) = energies (V m c main_v0) (V m c main_arg1) :=
    (Pipeline.withArrays_arr spec0 launch0.win.arr_inj c _ _ 2).trans (energy_final m c)
  have t : (Pipeline.afterTail₀ cfgs (dats m) 0 (V0 m) [hostOps1] c main_v2 : S4194304.Idx → EReal)
      = shapeCast S4194304 (energies (V m c main_v0) (V m c main_arg1)) shapeCasts_S4194304x1_S4194304 := by
    unfold Pipeline.afterTail₀
    show StableHlo.after hostOps1 _ (Proc.devRef .tc main_v2) = _
    after_results
    funext i
    exact congrFun (congrArg (fun x => shapeCast S4194304 x shapeCasts_S4194304x1_S4194304) e) i
  refine eq_energyOf _ _ _ (fun r => ?_)
  rw [t, vector_read, energies_entry]

/-- The second result: the force column laid out as a vector, that is, the forces. -/
theorem tail_force (c : Dev nD) :
    (Pipeline.afterTail₀ cfgs (dats m) 0 (V0 m) [hostOps1] c main_v3 : S4194304.Idx → EReal)
      = forceOf (m ((c : Thread nD τ).loc main_arg0)) (m ((c : Thread nD τ).loc main_arg1)) := by
  have e : Pipeline.withArrays (cfgs 0).spec c (V0 m c) (fun w => (dats m 0 c).arrAt w (cfgs 0).N)
      (Proc.devRef .tc main_v1_1) = forces (V m c main_v0) (V m c main_arg1) :=
    (Pipeline.withArrays_arr spec0 launch0.win.arr_inj c _ _ 3).trans (force_final m c)
  have t : (Pipeline.afterTail₀ cfgs (dats m) 0 (V0 m) [hostOps1] c main_v3 : S4194304.Idx → EReal)
      = shapeCast S4194304 (forces (V m c main_v0) (V m c main_arg1)) shapeCasts_S4194304x1_S4194304 := by
    unfold Pipeline.afterTail₀
    show StableHlo.after hostOps1 _ (Proc.devRef .tc main_v3) = _
    after_results
    funext i
    exact congrFun (congrArg (fun x => shapeCast S4194304 x shapeCasts_S4194304x1_S4194304) e) i
  refine eq_forceOf _ _ _ (fun r => ?_)
  rw [t, vector_read, forces_entry]

/-! ## The run -/

/-- Every weakly fair execution of the kernel's program terminates, nothing faulting, with its two results the
    energies and the forces of the samples its arguments hold, and its arguments unchanged. -/
theorem run : θ_run defs (onTc (τ := τ) (main (F := Ideal))) ⟨m, fun _ => 0, ρ⟩ fun r => ∀ c : Dev nD,
      r.2.mem ((c : Thread nD τ).loc main_v2)
        = energyOf (m ((c : Thread nD τ).loc main_arg0)) (m ((c : Thread nD τ).loc main_arg1))
      ∧ r.2.mem ((c : Thread nD τ).loc main_v3)
        = forceOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_energy m c),
      ((h c).2 main_v3 (Pipeline.mem_restRefs_of main_v3 (by decide) (by decide))).trans (tail_force m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.RunValue

end
-- ==== Proof.RefValue.lean ====
/-
  The reference program's two results, read at one row, are the energy and the force of that row's sample.

  The sample of row r is the distance d = x0[r] and the twenty-one parameters x1[r, 0 … 20]. The program cuts the
  row's first nine entries into three triples and takes the strength c and the length sigma of triple j from the
  triple's second and third places: c is entry 3 j + 1, sigma is entry 3 j + 2. It cuts the last twelve entries into
  four triples (amplitude, mean, width): entries 9 + 3 k, 9 + 3 k + 1 and 9 + 3 k + 2. Every cut regroups a row's
  columns in row-major order, so which entry an operand reads is arithmetic on quotients and remainders by 3, 9, 4
  and 12. The distance is spread unchanged along the three, respectively four, terms of a row.

  A term is computed entry by entry, its powers multiplied out as squares of squares in the order the specification
  writes them, so a term of the program and the specification's term are one expression, up to the sign of a force
  term. A Lennard-Jones force term carries the factor -4 where the specification has 4, and (-x) * y = -(x * y). A
  Gaussian force term is negated between its two divisions by width^2, and the sign passes through the second
  division. So the program's force terms are the negated terms, which is how the specification states the force: as a
  sum of negated terms, never as the negation of a sum.

  Each result is the three Lennard-Jones terms summed from the zero word, plus the four Gaussian terms summed from the
  zero word.
-/
import proofs.«119446_j1288490189271_2_alg».proof.Proof.Gen.ReferenceIdeal.Read
import proofs.«119446_j1288490189271_2_alg».proof.Proof.Potential
import Idealize.ShloMosaic.Lib.ValueIdx
import Idealize.ShloMosaic.PureOps.Ideal

noncomputable section

namespace Cert.ReferenceIdeal.RefValue

open Idealize.ShloMosaic Idealize.ShloMosaic.ValueIdx Cert.ReferenceIdeal Cert.ReferenceIdeal.Read Cert.PairPotential

/-! ## The leaves: which entry of the sample each operand reads -/

section Leaves
variable {F : FTy → Type} [FloatOps F]

/-- The strength c of Lennard-Jones triple j is entry 3 j + 1 of the parameter row: the row's first nine entries are
    cut into three triples, and c is a triple's middle entry. -/
theorem leaf_c (x1 : (⟨S4194304x21, .f32⟩ : BufTy).Contents (Elt F)) (r : Fin 4194304) (j : Fin 3) :
    val_main_v4 (F := F) x1 (ix2 r j) = x1 (ix2 r ⟨3 * j.val + 1, by omega⟩) := by
  rw [val_main_v4_apply, val_main_v3_apply, val_main_v2_apply, val_main_v1_apply]
  refine congrArg x1 (funext fun a => Fin.ext ?_)
  have hr := r.isLt
  have hj := j.isLt
  match a with
  | ⟨0, _⟩ =>
    show (((r.val * 3 + j.val) / 3 * 3 + (r.val * 3 + j.val) / 1 % 3) * 3 + (1 + 0)) / 9 = r.val
    omega
  | ⟨1, _⟩ =>
    show (((r.val * 3 + j.val) / 3 * 3 + (r.val * 3 + j.val) / 1 % 3) * 3 + (1 + 0)) % 9 = 3 * j.val + 1
    omega

/-- The length sigma of Lennard-Jones triple j is entry 3 j + 2 of the parameter row: a triple's last entry. -/
theorem leaf_sigma (x1 : (⟨S4194304x21, .f32⟩ : BufTy).Contents (Elt F)) (r : Fin 4194304) (j : Fin 3) :
    val_main_v6 (F := F) x1 (ix2 r j) = x1 (ix2 r ⟨3 * j.val + 2, by omega⟩) := by
  rw [val_main_v6_apply, val_main_v5_apply, val_main_v2_apply, val_main_v1_apply]
  refine congrArg x1 (funext fun a => Fin.ext ?_)
  have hr := r.isLt
  have hj := j.isLt
  match a with
  | ⟨0, _⟩ =>
    show (((r.val * 3 + j.val) / 3 * 3 + (r.val * 3 + j.val) / 1 % 3) * 3 + (2 + 0)) / 9 = r.val
    omega
  | ⟨1, _⟩ =>
    show (((r.val * 3 + j.val) / 3 * 3 + (r.val * 3 + j.val) / 1 % 3) * 3 + (2 + 0)) % 9 = 3 * j.val + 2
    omega

/-- The amplitude of Gaussian k is entry 9 + 3 k of the parameter row: the row's last twelve entries are cut into four
    triples, and the amplitude is a triple's first entry. -/
theorem leaf_amp (x1 : (⟨S4194304x21, .f32⟩ : BufTy).Contents (Elt F)) (r : Fin 4194304) (k : Fin 4) :
    val_main_v48 (F := F) x1 (ix2 r k) = x1 (ix2 r ⟨9 + 3 * k.val, by omega⟩) := by
  rw [val_main_v48_apply, val_main_v47_apply, val_main_v46_apply, val_main_v45_apply]
  refine congrArg x1 (funext fun a => Fin.ext ?_)
  have hr := r.isLt
  have hk := k.isLt
  match a with
  | ⟨0, _⟩ =>
    show (((r.val * 4 + k.val) / 4 * 4 + (r.val * 4 + k.val) / 1 % 4) * 3 + 0) / 12 = r.val
    omega
  | ⟨1, _⟩ =>
    show 9 + (((r.val * 4 + k.val) / 4 * 4 + (r.val * 4 + k.val) / 1 % 4) * 3 + 0) % 12 = 9 + 3 * k.val
    omega

/-- The mean of Gaussian k is entry 9 + 3 k + 1 of the parameter row: a triple's middle entry. -/
theorem leaf_mean (x1 : (⟨S4194304x21, .f32⟩ : BufTy).Contents (Elt F)) (r : Fin 4194304) (k : Fin 4) :
    val_main_v50 (F := F) x1 (ix2 r k) = x1 (ix2 r ⟨9 + 3 * k.val + 1, by omega⟩) := by
  rw [val_main_v50_apply, val_main_v49_apply, val_main_v46_apply, val_main_v45_apply]
  refine congrArg x1 (funext fun a => Fin.ext ?_)
  have hr := r.isLt
  have hk := k.isLt
  match a with
  | ⟨0, _⟩ =>
    show (((r.val * 4 + k.val) / 4 * 4 + (r.val * 4 + k.val) / 1 % 4) * 3 + (1 + 0)) / 12 = r.val
    omega
  | ⟨1, _⟩ =>
    show 9 + (((r.val * 4 + k.val) / 4 * 4 + (r.val * 4 + k.val) / 1 % 4) * 3 + (1 + 0)) % 12 = 9 + 3 * k.val + 1
    omega

/-- The width of Gaussian k is entry 9 + 3 k + 2 of the parameter row: a triple's last entry. -/
theorem leaf_width (x1 : (⟨S4194304x21, .f32⟩ : BufTy).Contents (Elt F)) (r : Fin 4194304) (k : Fin 4) :
    val_main_v52 (F := F) x1 (ix2 r k) = x1 (ix2 r ⟨9 + 3 * k.val + 2, by omega⟩) := by
  rw [val_main_v52_apply, val_main_v51_apply, val_main_v46_apply, val_main_v45_apply]
  refine congrArg x1 (funext fun a => Fin.ext ?_)
  have hr := r.isLt
  have hk := k.isLt
  match a with
  | ⟨0, _⟩ =>
    show (((r.val * 4 + k.val) / 4 * 4 + (r.val * 4 + k.val) / 1 % 4) * 3 + (2 + 0)) / 12 = r.val
    omega
  | ⟨1, _⟩ =>
    show 9 + (((r.val * 4 + k.val) / 4 * 4 + (r.val * 4 + k.val) / 1 % 4) * 3 + (2 + 0)) % 12 = 9 + 3 * k.val + 2
    omega

/-- The distance, as a one-column array, read at any index whose row is r is the sample's distance: every broadcast of
    it along the terms reads it so. -/
theorem leaf_d (x0 : (⟨S4194304, .f32⟩ : BufTy).Contents (Elt F)) (r : Fin 4194304) (i : S4194304x1.Idx)
    (h : (i 0).val = r.val) : val_main_v0 (F := F) x0 i = x0 (ix1 r) := by
  rw [val_main_v0_apply]
  refine congrArg x0 (funext fun a => Fin.ext ?_)
  match a with
  | ⟨0, _⟩ => exact h

end Leaves

/-! ## One term of each kind, at a row -/

section Terms

/-- The Lennard-Jones energy term of triple j at row r. The program squares and multiplies sigma / d in the order
    the specification's sixth and twelfth powers are written, so the two sides are the same expression. -/
theorem lj_energy_term (x0 : (⟨S4194304, .f32⟩ : BufTy).Contents (Elt Ideal))
    (x1 : (⟨S4194304x21, .f32⟩ : BufTy).Contents (Elt Ideal)) (r : Fin 4194304) (j : Fin 3) :
    val_main_v16 (F := Ideal) x0 x1 (ix2 r j)
      = ljEnergy (x1 (ix2 r ⟨3 * j.val + 1, by omega⟩)) (x1 (ix2 r ⟨3 * j.val + 2, by omega⟩)) (x0 (ix1 r)) := by
  simp only [val_main_v16_apply, val_main_v14_apply, val_main_v15_apply, val_main_v12_apply, val_main_v11_apply,
    val_main_v10_apply, val_main_v9_apply, val_main_v8_apply, val_main_v13_apply, val_main_cst_apply,
    val_main_v7_apply]
  rw [leaf_c, leaf_sigma, leaf_d x0 r _ rfl]
  simp only [Ideal.mulf_def, Ideal.subf_def, Ideal.hostDivf_def, Ideal.ofBits_def]
  rfl

/-- The Lennard-Jones force term of triple j at row r is the NEGATED specification term: the program's factor is the
    word of -4 where the specification's is the word of 4, and (-x) * y = -(x * y) on the extended reals. The powers
    of sigma and of d are multiplied out in the specification's order. -/
theorem lj_force_term (x0 : (⟨S4194304, .f32⟩ : BufTy).Contents (Elt Ideal))
    (x1 : (⟨S4194304x21, .f32⟩ : BufTy).Contents (Elt Ideal)) (r : Fin 4194304) (j : Fin 3) :
    val_main_v44 (F := Ideal) x0 x1 (ix2 r j)
      = -ljForce (x1 (ix2 r ⟨3 * j.val + 1, by omega⟩)) (x1 (ix2 r ⟨3 * j.val + 2, by omega⟩)) (x0 (ix1 r)) := by
  simp only [val_main_v44_apply, val_main_v18_apply, val_main_v17_apply, val_main_cst_0_apply, val_main_v43_apply,
    val_main_v29_apply, val_main_v23_apply, val_main_v22_apply, val_main_cst_1_apply, val_main_v21_apply,
    val_main_v20_apply, val_main_v19_apply, val_main_v28_apply, val_main_v27_apply, val_main_v25_apply,
    val_main_v26_apply, val_main_v24_apply, val_main_v42_apply, val_main_v35_apply, val_main_v34_apply,
    val_main_cst_2_apply, val_main_v33_apply, val_main_v32_apply, val_main_v31_apply, val_main_v30_apply,
    val_main_v41_apply, val_main_v40_apply, val_main_v38_apply, val_main_v39_apply, val_main_v37_apply,
    val_main_v36_apply]
  rw [leaf_c, leaf_sigma, leaf_d x0 r _ rfl]
  simp only [Ideal.mulf_def, Ideal.subf_def, Ideal.hostDivf_def, Ideal.ofBits_def]
  exact negFour_mul _ _

/-- The energy term of Gaussian k at row r: the amplitude times the exponential of -(d - mean)^2 / (2 width^2). -/
theorem gauss_energy_term (x0 : (⟨S4194304, .f32⟩ : BufTy).Contents (Elt Ideal))
    (x1 : (⟨S4194304x21, .f32⟩ : BufTy).Contents (Elt Ideal)) (r : Fin 4194304) (k : Fin 4) :
    val_main_v62 (F := Ideal) x0 x1 (ix2 r k)
      = gaussEnergy (x1 (ix2 r ⟨9 + 3 * k.val, by omega⟩)) (x1 (ix2 r ⟨9 + 3 * k.val + 1, by omega⟩))
          (x1 (ix2 r ⟨9 + 3 * k.val + 2, by omega⟩)) (x0 (ix1 r)) := by
  simp only [val_main_v62_apply, val_main_v61_apply, val_main_v60_apply, val_main_v56_apply, val_main_v55_apply,
    val_main_v54_apply, val_main_v59_apply, val_main_v58_apply, val_main_cst_3_apply, val_main_v57_apply,
    val_main_v53_apply]
  rw [leaf_amp, leaf_mean, leaf_width, leaf_d x0 r _ rfl]
  simp only [Ideal.mulf_def, Ideal.subf_def, Ideal.hostDivf_def, Ideal.hostNegf_def, Ideal.negf_def,
    Ideal.hostUnary_exp_def, Ideal.ofBits_def]
  rfl

/-- The force term of Gaussian k at row r is the NEGATED specification term: the program negates between its two
    divisions by width^2, and the sign passes through the second division. -/
theorem gauss_force_term (x0 : (⟨S4194304, .f32⟩ : BufTy).Contents (Elt Ideal))
    (x1 : (⟨S4194304x21, .f32⟩ : BufTy).Contents (Elt Ideal)) (r : Fin 4194304) (k : Fin 4) :
    val_main_v71 (F := Ideal) x0 x1 (ix2 r k)
      = -gaussForce (x1 (ix2 r ⟨9 + 3 * k.val, by omega⟩)) (x1 (ix2 r ⟨9 + 3 * k.val + 1, by omega⟩))
          (x1 (ix2 r ⟨9 + 3 * k.val + 2, by omega⟩)) (x0 (ix1 r)) := by
  simp only [val_main_v71_apply, val_main_v69_apply, val_main_v68_apply, val_main_v66_apply, val_main_v64_apply,
    val_main_v63_apply, val_main_v61_apply, val_main_v60_apply, val_main_v56_apply, val_main_v55_apply,
    val_main_v54_apply, val_main_v59_apply, val_main_v58_apply, val_main_cst_3_apply, val_main_v57_apply,
    val_main_v65_apply, val_main_v67_apply, val_main_v70_apply, val_main_v53_apply]
  rw [leaf_amp, leaf_mean, leaf_width, leaf_d x0 r _ rfl]
  simp only [Ideal.mulf_def, Ideal.subf_def, Ideal.hostDivf_def, Ideal.hostNegf_def, Ideal.negf_def,
    Ideal.hostUnary_exp_def, Ideal.ofBits_def]
  exact div_neg_div _ _

end Terms

/-! ## The two results at a row -/

section Results

/-- The index a sum over an LJ array's columns reads at row r, column k: the energy terms' … -/
theorem idx_energy_lj (r : Fin 4194304) (k : Fin 3) : idx_main_v72 (ix1 r) k = ix2 r k := by
  funext a; match a with | ⟨0, _⟩ => rfl | ⟨1, _⟩ => rfl
/-- … the Gaussian energy terms' … -/
theorem idx_energy_gauss (r : Fin 4194304) (k : Fin 4) : idx_main_v73 (ix1 r) k = ix2 r k := by
  funext a; match a with | ⟨0, _⟩ => rfl | ⟨1, _⟩ => rfl
/-- … the LJ force terms' … -/
theorem idx_force_lj (r : Fin 4194304) (k : Fin 3) : idx_main_v75 (ix1 r) k = ix2 r k := by
  funext a; match a with | ⟨0, _⟩ => rfl | ⟨1, _⟩ => rfl
/-- … and the Gaussian force terms'. -/
theorem idx_force_gauss (r : Fin 4194304) (k : Fin 4) : idx_main_v76 (ix1 r) k = ix2 r k := by
  funext a; match a with | ⟨0, _⟩ => rfl | ⟨1, _⟩ => rfl

/-- The reference's first result at row r is the energy of the sample (distance at r, parameter row r): the sum of the
    three Lennard-Jones terms from the zero word plus the sum of the four Gaussian terms from the zero word. -/
theorem energy_apply (x0 : (⟨S4194304, .f32⟩ : BufTy).Contents (Elt Ideal)) (x1 : (⟨S4194304x21, .f32⟩ : BufTy).Contents (Elt Ideal)) (r : Fin 4194304) :
    val_main_v74 (F := Ideal) x0 x1 (ix1 r) = energy (x0 (ix1 r)) (fun j => x1 (ix2 r j)) := by
  rw [val_main_v74_apply, val_main_v72_apply, val_main_v73_apply]
  simp only [idx_energy_lj, idx_energy_gauss]
  exact energy_of_sums (x0 (ix1 r)) (fun j => x1 (ix2 r j))
    (fun k => val_main_v16 (F := Ideal) x0 x1 (ix2 r k)) (fun k => val_main_v62 (F := Ideal) x0 x1 (ix2 r k))
    (lj_energy_term x0 x1 r 0) (lj_energy_term x0 x1 r 1) (lj_energy_term x0 x1 r 2)
    (gauss_energy_term x0 x1 r 0) (gauss_energy_term x0 x1 r 1) (gauss_energy_term x0 x1 r 2)
    (gauss_energy_term x0 x1 r 3)

/-- The reference's second result at row r is the force on that sample: each term arrives already negated (the
    Lennard-Jones ones through the factor -4, the Gaussian ones through the negation between their divisions), and
    the two sums from the zero word add up to the sum of the negated terms. -/
theorem force_apply (x0 : (⟨S4194304, .f32⟩ : BufTy).Contents (Elt Ideal)) (x1 : (⟨S4194304x21, .f32⟩ : BufTy).Contents (Elt Ideal)) (r : Fin 4194304) :
    val_main_v77 (F := Ideal) x0 x1 (ix1 r) = force (x0 (ix1 r)) (fun j => x1 (ix2 r j)) := by
  rw [val_main_v77_apply, val_main_v75_apply, val_main_v76_apply]
  simp only [idx_force_lj, idx_force_gauss]
  exact force_of_sums (x0 (ix1 r)) (fun j => x1 (ix2 r j))
    (fun k => val_main_v44 (F := Ideal) x0 x1 (ix2 r k)) (fun k => val_main_v71 (F := Ideal) x0 x1 (ix2 r k))
    (lj_force_term x0 x1 r 0) (lj_force_term x0 x1 r 1) (lj_force_term x0 x1 r 2)
    (gauss_force_term x0 x1 r 0) (gauss_force_term x0 x1 r 1) (gauss_force_term x0 x1 r 2)
    (gauss_force_term x0 x1 r 3)

end Results

end Cert.ReferenceIdeal.RefValue

end
-- ==== Proof.lean ====
/-
  A kernel computing a pair potential against its array-program reference, over the extended reals.

  Both programs take 4194304 distances and a 4194304 x 21 array of parameters (three Lennard-Jones triples and four
  Gaussian triples per sample) and return, per sample, an energy and a force (Proof/Potential.lean states the two
  formulas). The kernel walks the samples in 2048 blocks of 2048 rows; on a block it works on whole columns, adding the
  seven terms one after the other into zeros (subtracting them, for the force). The reference works on whole arrays:
  it cuts the parameter rows into triples, computes the three Lennard-Jones terms and the four Gaussian terms as two
  arrays, sums each along its short axis from zero and adds the two sums; its force terms carry their sign inside
  (the factor -4; a negation between the Gaussian term's two divisions).

  The two agree because, sample by sample, both are the same seven terms: sums may be regrouped and reordered on the
  extended reals, zero minus x is minus x, (-x) y = -(x y), and the sign passes through two divisions by the same
  divisor (Proof/Potential.lean: for a zero divisor the inner quotient is an infinity, never zero, which is the one
  case where the sign would not pass through a single division). None of this needs the inputs finite, so the
  precondition is not used.

  The kernel's side: a row of a block (Proof/KernelRow.lean), the blocks tile the arrays (Proof/KernelArray.lean), the
  changes of shape before and after the region and the run (Proof/KernelRun.lean). The reference's side: its two
  results at a row (Proof/RefValue.lean), over its run read back one operation at a time (generated modules). Each
  program runs, faults nowhere and leaves its arguments as they were: the kernel's two frames are generated, and the
  reference's frame is its run with the results dropped. The idealized kernel is the kernel's own text read over the
  extended reals (no rewrite was applied), so there is nothing to preserve.
-/
import proofs.«119446_j1288490189271_2_alg».proof.Defs
import proofs.«119446_j1288490189271_2_alg».proof.Proof.Gen.Kernel
import proofs.«119446_j1288490189271_2_alg».proof.Proof.Gen.Kernel.Skeleton
import proofs.«119446_j1288490189271_2_alg».proof.Proof.Gen.Kernel.Launch
import proofs.«119446_j1288490189271_2_alg».proof.Proof.Gen.Kernel.Points
import proofs.«119446_j1288490189271_2_alg».proof.Proof.Gen.Kernel.Frame
import proofs.«119446_j1288490189271_2_alg».proof.Proof.Gen.KernelIdeal
import proofs.«119446_j1288490189271_2_alg».proof.Proof.Gen.KernelIdeal.Skeleton
import proofs.«119446_j1288490189271_2_alg».proof.Proof.Gen.KernelIdeal.Launch
import proofs.«119446_j1288490189271_2_alg».proof.Proof.Gen.KernelIdeal.Points
import proofs.«119446_j1288490189271_2_alg».proof.Proof.Gen.KernelIdeal.Frame
import proofs.«119446_j1288490189271_2_alg».proof.Proof.Gen.ReferenceIdeal
import proofs.«119446_j1288490189271_2_alg».proof.Proof.Gen.Pre_finite_inputs
import proofs.«119446_j1288490189271_2_alg».proof.Proof.Gen.ReferenceIdeal.Run
import proofs.«119446_j1288490189271_2_alg».proof.Proof.Gen.ReferenceIdeal.Read
import proofs.«119446_j1288490189271_2_alg».proof.Proof.KernelRun
import proofs.«119446_j1288490189271_2_alg».proof.Proof.RefValue
import proofs.«119446_j1288490189271_2_alg».proof.Proof.Result
import Idealize.ShloMosaic.Adequacy
import Idealize.ShloMosaic.Init

noncomputable section

namespace Cert.Proof

open Idealize.ShloMosaic Idealize.SL.Sem Cert.PairPotential

/-! ## The reference's two results are the energies and the forces -/

/-- The reference's first result, as a whole vector, is the energies of the samples its arguments hold. -/
theorem ref_energy (x0 : (⟨Cert.ReferenceIdeal.S4194304, .f32⟩ : BufTy).Contents (Elt Ideal))
    (x1 : (⟨Cert.ReferenceIdeal.S4194304x21, .f32⟩ : BufTy).Contents (Elt Ideal)) :
    Cert.ReferenceIdeal.Read.val_main_v74 (F := Ideal) x0 x1 = energyOf x0 x1 :=
  eq_energyOf x0 x1 _ (Cert.ReferenceIdeal.RefValue.energy_apply x0 x1)

/-- The reference's second result, as a whole vector, is the forces on them. -/
theorem ref_force (x0 : (⟨Cert.ReferenceIdeal.S4194304, .f32⟩ : BufTy).Contents (Elt Ideal))
    (x1 : (⟨Cert.ReferenceIdeal.S4194304x21, .f32⟩ : BufTy).Contents (Elt Ideal)) :
    Cert.ReferenceIdeal.Read.val_main_v77 (F := Ideal) x0 x1 = forceOf x0 x1 :=
  eq_forceOf x0 x1 _ (Cert.ReferenceIdeal.RefValue.force_apply x0 x1)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on the arguments both programs end with the energies and the forces of the samples the
    arguments hold. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v74_eq, ref_energy, (hagree c).1, (hagree c).2]
  · rw [Cert.ReferenceIdeal.Read.val_main_v77_eq, ref_force, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
